-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S16x1024 : Shape := ⟨2, ![16, 1024]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S16x1024x768 .f32) (main_arg1 : FVec F S16x1024x768 .f32) (main_arg2 : FVec F S16x1024 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S16x1024x768 .f32 := Host.absf main_arg1
  let main_cst_0 : FVec F S_ .f32 := constant S_ .f32 0x7F800000#32
  let main_v5 : FVec F S16x1024x768 .f32 := broadcastInDim S16x1024x768 ![] bcast_S_S16x1024x768 main_cst_0
  let main_v6 : IVec S16x1024x768 1 := cmpf .olt main_v4 main_v5
  let main_c_1 : IVec S_ 1 := constantI S_ 1 1#1
  let main_v7 : IVec S_ 1 := (fun x v => Host.reduce IntOp.andi x v reducesTo_S16x1024x768_S_d0_1_2 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  main_v13
-- ==== Kernel.lean ====
abbrev S16x1024x768 : Shape := ⟨3, ![16, 1024, 768]⟩
abbrev S16x1024 : Shape := ⟨2, ![16, 1024]⟩
abbrev S16x1024x1 : Shape := ⟨3, ![16, 1024, 1]⟩
abbrev S16x768x768 : Shape := ⟨3, ![16, 768, 768]⟩
abbrev S1x1024x768 : Shape := ⟨3, ![1, 1024, 768]⟩
abbrev S1x1024x1 : Shape := ⟨3, ![1, 1024, 1]⟩
abbrev S1x768x256 : Shape := ⟨3, ![1, 768, 256]⟩
abbrev S1024x768 : Shape := ⟨2, ![1024, 768]⟩
abbrev S1024x1 : Shape := ⟨2, ![1024, 1]⟩
abbrev S1x1024x256 : Shape := ⟨3, ![1, 1024, 256]⟩
abbrev S1024x256 : Shape := ⟨2, ![1024, 256]⟩
abbrev S768x256 : Shape := ⟨2, ![768, 256]⟩

abbrev nBuf : Space → Nat
  | .hbm => 6
  | .vmem => 10
  | .smem => 0
  | _ => 0

abbrev bufTy : (tb : Table) → Fin (tcTables nBuf tb) → BufTy
  | .hbm, ⟨0, _⟩ => ⟨S16x1024x768, .f32⟩
  | .hbm, ⟨1, _⟩ => ⟨S16x1024x768, .f32⟩
  | .hbm, ⟨2, _⟩ => ⟨S16x1024, .f32⟩
  | .hbm, ⟨3, _⟩ => ⟨S16x1024x1, .f32⟩
  | .hbm, ⟨4, _⟩ => ⟨S16x768x768, .f32⟩
  | .hbm, ⟨5, _⟩ => ⟨S16x768x768, .f32⟩
  | .local _ .vmem, ⟨0, _⟩ => ⟨S1x1024x768, .f32⟩
  | .local _ .vmem, ⟨1, _⟩ => ⟨S1x1024x768, .f32⟩
  | .local _ .vmem, ⟨2, _⟩ => ⟨S1x1024x768, .f32⟩
  | .local _ .vmem, ⟨3, _⟩ => ⟨S1x1024x768, .f32⟩
  | .local _ .vmem, ⟨4, _⟩ => ⟨S1x1024x1, .f32⟩
  | .local _ .vmem, ⟨5, _⟩ => ⟨S1x1024x1, .f32⟩
  | .local _ .vmem, ⟨6, _⟩ => ⟨S1x768x256, .f32⟩
  | .local _ .vmem, ⟨7, _⟩ => ⟨S1x768x256, .f32⟩
  | .local _ .vmem, ⟨8, _⟩ => ⟨S1x768x256, .f32⟩
  | .local _ .vmem, ⟨9, _⟩ => ⟨S1x768x256, .f32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0_8 : Index := 0#32
  let c0_9 : Index := 0#32
  let arg1 : BitVec 32 := BitVec.ofNat 32 (i 1).val
  let c256_i32 : BitVec 32 := 256#32
  let v0 : BitVec 32 := Scalar.muli arg1 c256_i32
  let v1 : BitVec 32 := v0
  let v8 : Index := Scalar.indexCast v1
  ![0, 0, v8.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S16x1024_S16x1024x1_0_1 : S16x1024.BroadcastsInDim S16x1024x1 (![0, 1] : Fin 2 → Fin S16x1024x1.rank)
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  h_S1x1024x256 : 0 < S1x1024x256.numel
  shapeCasts_S1x1024x256_S1024x256 : S1x1024x256.ShapeCasts S1024x256
  broadcasts_S1024x1_S1024x768 : S1024x1.Broadcasts S1024x768
  bitsLt_bf16_f32 : FTy.bits .bf16 < FTy.bits .f32
  inb_S1x768x256_S1x768x256_0_0_0 : ∀ a, (![0, 0, 0] : Fin 3 → Nat) a + S1x768x256.size a ≤ S1x768x256.size a
  h_S1x768x256 : 0 < S1x768x256.numel
  shapeCasts_S1x768x256_S768x256 : S1x768x256.ShapeCasts S768x256
  shapeCasts_S768x256_S1x768x256 : S768x256.ShapeCasts S1x768x256
  dot_S1024x768_S1024x256_S768x256_0_0_1_1_n_n_wf : DotDims.WF S1024x768 S1024x256 S768x256 [0] [0] [1] [1] [] []
  hrank0 : 0 < grid0.rank
  k0_mult1_dvd : ∀ i : grid0.Coords, 256 ∣ (k0_mult1 i).toNat
  k0_off1_inb : ∀ i : grid0.Coords, ∀ a, (k0_off1 i) a + S1x1024x256.size a ≤ S1x1024x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S16x1024x768.size a
  hwx0_0 : ∀ i : grid0.Coords, EltTy.bits .f32 = 32 ∨ (Rect.block (s := S16x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x768.size a ≤ S16x1024x768.size a
  hwx0_1 : ∀ i : grid0.Coords, EltTy.bits .f32 = 32 ∨ (Rect.block (s := S16x1024x768) S1x1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x1024x1.size a
  hwx0_2 : ∀ i : grid0.Coords, EltTy.bits .f32 = 32 ∨ (Rect.block (s := S16x1024x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x256.size a ≤ S16x768x768.size a
  hwx0_3 : ∀ i : grid0.Coords, EltTy.bits .f32 = 32 ∨ (Rect.block (s := S16x768x768) S1x768x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x768x256.size a ≤ S16x768x768.size a
  hwx0_4 : ∀ i : grid0.Coords, EltTy.bits .f32 = 32 ∨ (Rect.block (s := S16x768x768) S1x768x256.size (cc0_transform_4 i) (hinb0_4 i)).WholeWords (EltTy.packing .f32)

variable [Facts₀]

def dot_S1024x768_S1024x256_S768x256_0_0_1_1_n_n : DotDims S1024x768 S1024x256 S768x256 where
  lhsContracting := [0]
  rhsContracting := [0]
  lhsNonContracting := [1]
  rhsNonContracting := [1]
  lhsBatch := []
  rhsBatch := []
  wf := dot_S1024x768_S1024x256_S768x256_0_0_1_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x768x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x768x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x768 : Shape := ⟨3, ![16, 1024, 768]⟩
abbrev S16x1024 : Shape := ⟨2, ![16, 1024]⟩
abbrev S16x1024x1 : Shape := ⟨3, ![16, 1024, 1]⟩
abbrev S16x768x768 : Shape := ⟨3, ![16, 768, 768]⟩

abbrev nBuf : Space → Nat
  | .hbm => 15
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S16x1024x768, .f32⟩
  | .hbm, ⟨2, _⟩ => ⟨S16x1024, .f32⟩
  | .hbm, ⟨3, _⟩ => ⟨S16x1024x1, .f32⟩
  | .hbm, ⟨4, _⟩ => ⟨S16x1024x768, .f32⟩
  | .hbm, ⟨5, _⟩ => ⟨S16x1024x768, .f32⟩
  | .hbm, ⟨6, _⟩ => ⟨S16x1024x1, .f32⟩
  | .hbm, ⟨7, _⟩ => ⟨S16x1024x768, .f32⟩
  | .hbm, ⟨8, _⟩ => ⟨S16x1024x768, .f32⟩
  | .hbm, ⟨9, _⟩ => ⟨S16x768x768, .f32⟩
  | .hbm, ⟨10, _⟩ => ⟨S16x768x768, .f32⟩
  | .hbm, ⟨11, _⟩ => ⟨S16x768x768, .f32⟩
  | .hbm, ⟨12, _⟩ => ⟨S16x768x768, .f32⟩
  | .hbm, ⟨13, _⟩ => ⟨S16x768x768, .f32⟩
  | .hbm, ⟨14, _⟩ => ⟨S16x768x768, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S16x1024_S16x1024x1_0_1 : S16x1024.BroadcastsInDim S16x1024x1 (![0, 1] : Fin 2 → Fin S16x1024x1.rank)
  bcast_S16x1024x1_S16x1024x768_0_1_2 : S16x1024x1.BroadcastsInDim S16x1024x768 (![0, 1, 2] : Fin 3 → Fin S16x1024x768.rank)
  dot_S16x1024x768_S16x1024x768_S16x768x768_1_1_2_2_0_0_wf : DotDims.WF S16x1024x768 S16x1024x768 S16x768x768 [1] [1] [2] [2] [0] [0]

variable [Facts₀]

def dot_S16x1024x768_S16x1024x768_S16x768x768_1_1_2_2_0_0 : DotDims S16x1024x768 S16x1024x768 S16x768x768 where
  lhsContracting := [1]
  rhsContracting := [1]
  lhsNonContracting := [2]
  rhsNonContracting := [2]
  lhsBatch := [0]
  rhsBatch := [0]
  wf := dot_S16x1024x768_S16x1024x768_S16x768x768_1_1_2_2_0_0_wf

class Facts : Prop extends Facts₀ where

variable [Facts]
-- ==== Proof.Stores.lean ====
/-
  What one grid point leaves in the two output blocks.

  At a grid point (b, j) the body reads the whole [1,1024,768] blocks of the two data arrays, the [1,1024,1] weight
  column, and once more the 256 columns of each data block that start at column 256·j.  It makes one store into
  each output block, through the whole block.  So after the body the first output block holds the first store's
  value and the second output block the second store's value, each a pure function of the three blocks read and
  of the two 256-column slices.
-/
import proofs.«112458_j54906861912216_2_alg».proof.Proof.Gen.KernelIdeal.Frame
import Idealize.ShloMosaic.Lib.Pipeline.Value
import Idealize.ShloMosaic.Lib.Tactic
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Tactic

variable {F : FTy → Type} [FloatOps F]

theorem zeros3 : (![0, 0, 0] : Fin 3 → Nat) = fun _ => 0 := funext fun a => by fin_cases a <;> rfl

/-- The 256 columns of a [1,1024,768] block that start at column 256·j, as the body loads them. -/
abbrev cols256 (i : grid0.Coords) (x : Vec F S1x1024x768 .f32) : Vec F S1x1024x256 .f32 :=
  View.ld x (Rect.unit (s := S1x1024x768) (k0_off1 i) S1x1024x256.size (k0_off1_inb i))

/-- When the slice starts at column `o`, its entry (0, k, q) is the block's entry (0, k, o + q). -/
theorem cols256_apply (i : grid0.Coords) (o : Nat) (hoff : k0_off1 i = ![0, 0, o]) (x : Vec F S1x1024x768 .f32)
    (k : Fin 1024) (q : Fin 256) (ho : o + q.val < 768) :
    cols256 i x (ValueIdx.ix3 (0 : Fin 1) k q) = x (ValueIdx.ix3 (0 : Fin 1) k (⟨o + q.val, ho⟩ : Fin 768)) := by
  show x ((Rect.unit (s := S1x1024x768) (k0_off1 i) S1x1024x256.size (k0_off1_inb i)).idx (ValueIdx.ix3 (0 : Fin 1) k q)) = _
  refine congrArg x (funext fun a => Fin.ext ?_)
  rw [LoadRect.idx_apply]
  match a with
  | ⟨0, _⟩ => show k0_off1 i 0 + 1 * 0 = 0; rw [hoff]; rfl
  | ⟨1, _⟩ => show k0_off1 i 1 + 1 * k.val = k.val; rw [hoff]; show 0 + 1 * k.val = k.val; omega
  | ⟨2, _⟩ => show k0_off1 i 2 + 1 * q.val = o + q.val; rw [hoff]; show o + 1 * q.val = o + q.val; omega

/-- The first output block after the body: the value of its one store. -/
theorem first_block (c : Dev nD) (i : grid0.Coords) (arg2 : Memref sig .tc .vmem S1x1024x768 .f32) (harg2 : arg2.IsWhole)
    (arg3 : Memref sig .tc .vmem S1x1024x768 .f32) (harg3 : arg3.IsWhole) (arg4 : Memref sig .tc .vmem S1x1024x1 .f32)
    (harg4 : arg4.IsWhole) (arg5 : Memref sig .tc .vmem S1x768x256 .f32) (harg5 : arg5.IsWhole)
    (arg6 : Memref sig .tc .vmem S1x768x256 .f32) (harg6 : arg6.IsWhole)
    (x0 : Vec F S1x1024x768 .f32) (x1 : Vec F S1x1024x768 .f32) (x2 : Vec F S1x1024x1 .f32) :
    out0_A_3 c i arg2 harg2 arg3 harg3 arg4 harg4 arg5 harg5 arg6 harg6 x0 x1 x2
      = k0_pay10 x0 x1 x2 (cols256 i x0) (cols256 i x1) := by
  unfold out0_A_3
  rw [View.read_writes_eq_canon _ _ _ (cover0_A_3 c i arg2 harg2 arg3 harg3 arg4 harg4 arg5 harg5 arg6 harg6 x0 x1 x2)]
  unfold kernelRun0_A
  dsimp only
  rw [View.canon_unit_zero zeros3]
  simp only [View.readAt_eq_ld, harg2.read_unread, harg3.read_unread, harg4.read_unread,
    View.ld_unit_zero (S := S1x1024x768) zeros3, View.ld_unit_zero (S := S1x1024x1) zeros3]

/-- The second output block after the body: the value of its one store. -/
theorem second_block (c : Dev nD) (i : grid0.Coords) (arg2 : Memref sig .tc .vmem S1x1024x768 .f32) (harg2 : arg2.IsWhole)
    (arg3 : Memref sig .tc .vmem S1x1024x768 .f32) (harg3 : arg3.IsWhole) (arg4 : Memref sig .tc .vmem S1x1024x1 .f32)
    (harg4 : arg4.IsWhole) (arg5 : Memref sig .tc .vmem S1x768x256 .f32) (harg5 : arg5.IsWhole)
    (arg6 : Memref sig .tc .vmem S1x768x256 .f32) (harg6 : arg6.IsWhole)
    (x0 : Vec F S1x1024x768 .f32) (x1 : Vec F S1x1024x768 .f32) (x2 : Vec F S1x1024x1 .f32) :
    out0_A_4 c i arg2 harg2 arg3 harg3 arg4 harg4 arg5 harg5 arg6 harg6 x0 x1 x2
      = k0_pay1 (k0_pay9 x0 x1 x2 (cols256 i x0) (cols256 i x1)) := by
  unfold out0_A_4
  rw [View.read_writes_eq_canon _ _ _ (cover0_A_4 c i arg2 harg2 arg3 harg3 arg4 harg4 arg5 harg5 arg6 harg6 x0 x1 x2)]
  unfold kernelRun0_A
  dsimp only
  sl_unfold_words
  rw [View.canon_unit_zero zeros3]
  simp only [View.readAt_eq_ld, harg2.read_unread, harg3.read_unread, harg4.read_unread,
    View.ld_unit_zero (S := S1x1024x768) zeros3, View.ld_unit_zero (S := S1x1024x1) zeros3]
  rfl

end Cert.KernelIdeal.Blocks

end
-- ==== Proof.LibColsDot.lean ====
/-
  A matrix product contracted over the FIRST axis of both operands, read at an index, on the extended reals.

  For the dimension numbers `<[0], [0], [1], [1]>` with no batch axis (a `K×M` left operand and a `K×N` right operand,
  the first axis of each contracted: the product of the left operand's transpose with the right operand) the entry
  `(a, b)` of the product is `∑ k, l[k,a] · r[k,b]`. A `tpu.matmul` into a zero accumulator and the host's
  `dot_general` with these numbers both compute it at the exact instance; both are stated as equalities of whole
  arrays with one function, `colsByCols l r`, so that a product computed block of columns of the left operand by
  block and the same product computed at once are compared through one name.
-/
import Idealize.ShloMosaic.Lib.ValueIdx
import Idealize.ShloMosaic.PureOps.Ideal.Laws

noncomputable section

namespace Cert.Lib.ColsDot

open Idealize.ShloMosaic Idealize.ShloMosaic.ValueIdx

/-- `<[0], [0], [1], [1]>`: `K×M` by `K×N`, both contracted on their first axis. -/
def cols (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The product of the transpose of a `K×M` array by a `K×N` array: entry `(a, b)` is `∑ k, l[k,a] · r[k,b]`. -/
def colsByCols {K M N : ℕ} (l : (⟨2, ![K, M]⟩ : Shape).Idx → EReal) (r : (⟨2, ![K, N]⟩ : Shape).Idx → EReal) :
    (⟨2, ![M, N]⟩ : Shape).Idx → EReal :=
  fun j => ∑ k : Fin K, l (ix2 k (j 0)) * r (ix2 k (j 1))

theorem colsByCols_apply {K M N : ℕ} (l : (⟨2, ![K, M]⟩ : Shape).Idx → EReal) (r : (⟨2, ![K, N]⟩ : Shape).Idx → EReal)
    (j : (⟨2, ![M, N]⟩ : Shape).Idx) : colsByCols l r j = ∑ k : Fin K, l (ix2 k (j 0)) * r (ix2 k (j 1)) := rfl

/-- The left operand's index at result index `j` and contraction position `q`: row the contraction position's one
    coordinate … -/
theorem lhsIdx_row {K M N : ℕ} (j : (⟨2, ![M, N]⟩ : Shape).Idx) (q : (cols K M N).contr.Idx) :
    ((cols K M N).lhsIdx j q 0).val = (q ⟨0, Nat.one_pos⟩).val :=
  (cols K M N).lhsIdx_val_of_single rfl j q
/-- … and column `j 0`. -/
theorem lhsIdx_col {K M N : ℕ} (j : (⟨2, ![M, N]⟩ : Shape).Idx) (q : (cols K M N).contr.Idx) :
    ((cols K M N).lhsIdx j q 1).val = (j 0).val := by
  unfold DotDims.lhsIdx
  rw [dif_neg (show ¬(1 : Fin (⟨2, ![K, M]⟩ : Shape).rank) ∈ (cols K M N).lhsBatch from List.not_mem_nil),
    dif_pos (show (1 : Fin (⟨2, ![K, M]⟩ : Shape).rank) ∈ (cols K M N).lhsNonContracting from List.mem_singleton.mpr rfl)]
  rfl
/-- The right operand's index: row the contraction position's one coordinate … -/
theorem rhsIdx_row {K M N : ℕ} (j : (⟨2, ![M, N]⟩ : Shape).Idx) (q : (cols K M N).contr.Idx) :
    ((cols K M N).rhsIdx j q 0).val = (q ⟨0, Nat.one_pos⟩).val :=
  (cols K M N).rhsIdx_val_of_single rfl j q
/-- … and column `j 1`. -/
theorem rhsIdx_col {K M N : ℕ} (j : (⟨2, ![M, N]⟩ : Shape).Idx) (q : (cols K M N).contr.Idx) :
    ((cols K M N).rhsIdx j q 1).val = (j 1).val := by
  unfold DotDims.rhsIdx
  rw [dif_neg (show ¬(1 : Fin (⟨2, ![K, N]⟩ : Shape).rank) ∈ (cols K M N).rhsBatch from List.not_mem_nil),
    dif_pos (show (1 : Fin (⟨2, ![K, N]⟩ : Shape).rank) ∈ (cols K M N).rhsNonContracting from List.mem_singleton.mpr rfl)]
  rfl

/-- The sum over the record's one-axis contraction shape, with the operands read at the record's operand indices, is
    the sum over `k < K` of `l[k,a] · r[k,b]`: the contraction index is its one coordinate, the left index at `(j, k)`
    is `(k, j 0)` and the right index is `(k, j 1)`. -/
theorem contr_sum {K M N : ℕ} (d : DotDims ⟨2, ![K, M]⟩ ⟨2, ![K, N]⟩ ⟨2, ![M, N]⟩) (hd : d = cols K M N)
    (l : (⟨2, ![K, M]⟩ : Shape).Idx → EReal) (r : (⟨2, ![K, N]⟩ : Shape).Idx → EReal) (j : (⟨2, ![M, N]⟩ : Shape).Idx) :
    ∑ q : d.contr.Idx, l (d.lhsIdx j q) * r (d.rhsIdx j q) = colsByCols l r j := by
  subst hd
  unfold colsByCols
  rw [← Equiv.sum_comp (contrEquiv1 (cols K M N) K rfl rfl).symm]
  refine Finset.sum_congr rfl fun k _ => ?_
  have hk := contrEquiv1_symm_val (cols K M N) K rfl rfl k
  have el : (cols K M N).lhsIdx j ((contrEquiv1 (cols K M N) K rfl rfl).symm k) = ix2 k (j 0) :=
    funext fun a => Fin.ext (by
      match a with
      | ⟨0, _⟩ => exact (lhsIdx_row j _).trans hk
      | ⟨1, _⟩ => exact lhsIdx_col j _)
  have er : (cols K M N).rhsIdx j ((contrEquiv1 (cols K M N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with these dimension numbers into the zero accumulator is the product, whatever the operands'
    float formats and the precision attribute. -/
theorem matmul_zero_eq {K M N : ℕ} {φ₁ φ₂ : FTy} (d : DotDims ⟨2, ![K, M]⟩ ⟨2, ![K, N]⟩ ⟨2, ![M, N]⟩)
    (hd : d = cols K M N) (prec : Option ContractPrecision)
    (l : FVec Ideal ⟨2, ![K, M]⟩ φ₁) (r : FVec Ideal ⟨2, ![K, N]⟩ φ₂) :
    FloatOps.matmul d prec l r (constant (F := Ideal) ⟨2, ![M, N]⟩ .f32 0x00000000#32) = colsByCols l r :=
  funext fun j => (Ideal.matmul_constant_zero_apply d prec l r j).trans (contr_sum d hd l r j)

/-- The host's `dot_general` with these dimension numbers is the product, whatever the precision and the schedule. -/
theorem dotGeneral_eq {K M N : ℕ} {φ₁ φ₂ : FTy} (d : DotDims ⟨2, ![K, M]⟩ ⟨2, ![K, N]⟩ ⟨2, ![M, N]⟩)
    (hd : d = cols K M N) (prec : Option ContractPrecision) (sched : HostSchedule)
    (l : FVec Ideal ⟨2, ![K, M]⟩ φ₁) (r : FVec Ideal ⟨2, ![K, N]⟩ φ₂) :
    FloatOps.dotGeneral d prec sched l r = colsByCols l r :=
  funext fun j => (Ideal.dotGeneral_apply d prec sched l r j).trans (contr_sum d hd l r j)

/-- Two such products agree at two indices when their operands agree along the two columns read there. In
    particular a block of columns of the left operand gives the corresponding block of rows of the product. -/
theorem colsByCols_congr {K M M' N N' : ℕ} (l : (⟨2, ![K, M]⟩ : Shape).Idx → EReal) (r : (⟨2, ![K, N]⟩ : Shape).Idx → EReal)
    (l' : (⟨2, ![K, M']⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 k (j' 0)) = l (ix2 k (j 0))) (hr : ∀ k : Fin K, r' (ix2 k (j' 1)) = r (ix2 k (j 1))) :
    colsByCols l' r' j' = colsByCols l r j := by
  unfold colsByCols
  exact Finset.sum_congr rfl fun k _ => by rw [hl k, hr k]

end Cert.Lib.ColsDot

end
-- ==== Proof.BodyValue.lean ====
/-
  The body's two stored values, entry by entry, on the extended reals.

  The body scales every row k of the two [1024,768] data blocks by the weight of that row, and forms three products
  of a [1024,768] array by a [1024,256] array, each contracted over the rows: the scaled real part by the real
  columns, the scaled imaginary part by the imaginary columns, and the sum of the two scaled parts by the
  difference of the columns.  Roundings to a shorter float format are the identity on the extended reals, so each
  product's entry (p, q) is  Σ_k l[k,p]·r[k,q].  The first stored value is the sum of the first two products; the
  second is the third product, less the first, plus the second.
-/
import proofs.«112458_j54906861912216_2_alg».proof.Proof.Gen.KernelIdeal.Skeleton
import proofs.«112458_j54906861912216_2_alg».proof.Proof.LibColsDot
import Idealize.ShloMosaic.Lib.Pipeline.Value
import Idealize.ShloMosaic.Lib.ValueLayout
import Idealize.ShloMosaic.Lib.ValueIdx

noncomputable section

namespace Cert.KernelIdeal.Body

open Cert.KernelIdeal Cert.KernelIdeal.Gen Idealize.ShloMosaic Idealize.ShloMosaic.ValueIdx Cert.Lib.ColsDot

/-- A [1024,1] column spread over 768 columns reads, at (k, p), the column's entry k. -/
theorem column_spread (v : (⟨2, ![1024, 1]⟩ : Shape).Idx → EReal) (h : (⟨2, ![1024, 1]⟩ : Shape).Broadcasts ⟨2, ![1024, 768]⟩)
    (k : Fin 1024) (p : Fin 768) : broadcastTo ⟨2, ![1024, 768]⟩ v h (ix2 k p) = v (ix2 k (0 : Fin 1)) :=
  broadcastTo_apply v h (ix2 k p) (ix2 k (0 : Fin 1)) fun ax => by
    match ax with
    | ⟨0, _⟩ => show k.val = if (1024 : Nat) = 1 then 0 else k.val; rw [if_neg (by decide)]
    | ⟨1, _⟩ => show 0 = if (1 : Nat) = 1 then 0 else p.val; rw [if_pos rfl]

/-- The body's matrix-product record is the one that contracts the first axis of both operands. -/
theorem dims_eq : dot_S1024x768_S1024x256_S768x256_0_0_1_1_n_n = cols 1024 768 256 := rfl

variable (x0 x1 : Vec Ideal S1x1024x768 .f32) (x2 : Vec Ideal S1x1024x1 .f32) (v9 v12 : Vec Ideal S1x1024x256 .f32)

/-- The weight of row k as the body reads it. -/
abbrev weightAt (x2 : Vec Ideal S1x1024x1 .f32) (k : Fin 1024) : EReal := x2 (ix3 (0 : Fin 1) k (0 : Fin 1))

/-- The scaled first data block at (k, p). -/
theorem scaled_first (k : Fin 1024) (p : Fin 768) :
    k0_pay5 (F := Ideal) x0 x2 (ix2 k p) = weightAt x2 k * x0 (ix3 (0 : Fin 1) k p) := by
  unfold k0_pay5 k0_pay2
  rw [mulf_apply, column_spread, shapeCast_1ab_ab_apply, shapeCast_1ab_ab_apply]

/-- The scaled second data block at (k, p). -/
theorem scaled_second (k : Fin 1024) (p : Fin 768) :
    k0_pay6 (F := Ideal) x1 x2 (ix2 k p) = weightAt x2 k * x1 (ix3 (0 : Fin 1) k p) := by
  unfold k0_pay6 k0_pay2
  rw [mulf_apply, column_spread, shapeCast_1ab_ab_apply, shapeCast_1ab_ab_apply]

/-- The 256 columns with their unit axis dropped, at (k, q). -/
theorem cols_first (k : Fin 1024) (q : Fin 256) : k0_pay3 (F := Ideal) v9 (ix2 k q) = v9 (ix3 (0 : Fin 1) k q) := by
  unfold k0_pay3
  rw [shapeCast_1ab_ab_apply]

theorem cols_second (k : Fin 1024) (q : Fin 256) : k0_pay4 (F := Ideal) v12 (ix2 k q) = v12 (ix3 (0 : Fin 1) k q) := by
  unfold k0_pay4
  rw [shapeCast_1ab_ab_apply]

/-- The weighted correlation, within one block, of column p of `x` with column q of `v`. -/
def blockCorr (x2 : Vec Ideal S1x1024x1 .f32) (x : Vec Ideal S1x1024x768 .f32) (v : Vec Ideal S1x1024x256 .f32)
    (p : Fin 768) (q : Fin 256) : EReal :=
  ∑ k : Fin 1024, (weightAt x2 k * x (ix3 (0 : Fin 1) k p)) * v (ix3 (0 : Fin 1) k q)

/-- The same for the sum of the two scaled blocks against the difference of the two column blocks. -/
def blockCorrSumDiff (x2 : Vec Ideal S1x1024x1 .f32) (x0 x1 : Vec Ideal S1x1024x768 .f32) (v9 v12 : Vec Ideal S1x1024x256 .f32)
    (p : Fin 768) (q : Fin 256) : EReal :=
  ∑ k : Fin 1024, (weightAt x2 k * x0 (ix3 (0 : Fin 1) k p) + weightAt x2 k * x1 (ix3 (0 : Fin 1) k p))
    * (v9 (ix3 (0 : Fin 1) k q) - v12 (ix3 (0 : Fin 1) k q))

/-- The first product at (p, q). -/
theorem product_first (p : Fin 768) (q : Fin 256) :
    k0_pay7 (F := Ideal) x0 x2 v9 (ix2 p q) = blockCorr x2 x0 v9 p q := by
  unfold k0_pay7
  refine (congrFun (matmul_zero_eq _ dims_eq _ _ _) _).trans ?_
  rw [colsByCols_apply]
  unfold blockCorr
  refine Finset.sum_congr rfl fun k _ => ?_
  rw [truncf_apply, truncf_apply]
  exact congrArg₂ (· * ·) (scaled_first x0 x2 k p) (cols_first v9 k q)

/-- The second product at (p, q). -/
theorem product_second (p : Fin 768) (q : Fin 256) :
    k0_pay8 (F := Ideal) x1 x2 v12 (ix2 p q) = blockCorr x2 x1 v12 p q := by
  unfold k0_pay8
  refine (congrFun (matmul_zero_eq _ dims_eq _ _ _) _).trans ?_
  rw [colsByCols_apply]
  unfold blockCorr
  refine Finset.sum_congr rfl fun k _ => ?_
  rw [truncf_apply, truncf_apply]
  exact congrArg₂ (· * ·) (scaled_second x1 x2 k p) (cols_second v12 k q)

/-- The first stored value at (0, p, q): the sum of the first two products. -/
theorem stored_first (u : Fin 1) (p : Fin 768) (q : Fin 256) :
    k0_pay10 (F := Ideal) x0 x1 x2 v9 v12 (ix3 u p q) = blockCorr x2 x0 v9 p q + blockCorr x2 x1 v12 p q := by
  unfold k0_pay10
  rw [shapeCast_ab_1ab_apply, addf_apply, product_first, product_second]

/-- The second stored value at (0, p, q): the third product, less the first, plus the second. -/
theorem stored_second (u : Fin 1) (p : Fin 768) (q : Fin 256) :
    k0_pay1 (F := Ideal) (k0_pay9 x0 x1 x2 v9 v12) (ix3 u p q)
      = blockCorrSumDiff x2 x0 x1 v9 v12 p q - blockCorr x2 x0 v9 p q + blockCorr x2 x1 v12 p q := by
  unfold k0_pay1 k0_pay9
  rw [shapeCast_ab_1ab_apply, addf_apply, subf_apply, product_first, product_second]
  refine congrArg₂ (· + ·) (congrArg₂ (· - ·) ?_ rfl) rfl
  refine (congrFun (matmul_zero_eq _ dims_eq _ _ _) _).trans ?_
  rw [colsByCols_apply]
  unfold blockCorrSumDiff
  refine Finset.sum_congr rfl fun k _ => ?_
  rw [truncf_apply, truncf_apply, addf_apply, subf_apply]
  exact congrArg₂ (· * ·) (congrArg₂ (· + ·) (scaled_first x0 x2 k p) (scaled_second x1 x2 k p))
    (congrArg₂ (· - ·) (cols_first v9 k q) (cols_second v12 k q))

end Cert.KernelIdeal.Body

end
-- ==== Proof.Karatsuba.lean ====
/-
  Three products instead of four.

  A complex outer product  (r + i·s)(c − i·d)  has real part  r·c + s·d  and imaginary part  s·c − r·d.  The
  imaginary part can be had from the two products of the real part and ONE more:

      (r + s)·(c − d) − r·c + s·d  =  s·c − r·d.

  Summed over an index k with weights, this is the identity below.  It uses that a product distributes over a
  sum and that a term cancels against its negative, which holds for real numbers but not when an infinity is
  among the terms; so the extended-real form is stated for real data.
-/
import Mathlib

namespace Cert.Karatsuba

open Finset

/-- The embedding of the reals in the extended reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over the reals: the sum of the third products, less the first sum, plus the second, is the imaginary part. -/
theorem three_for_four_real {ι : Type*} [Fintype ι] (a b c d : ι → ℝ) :
    (∑ k, (a k + b k) * (c k - d k)) - ∑ k, a k * c k + ∑ k, b k * d k = ∑ k, b k * c k - ∑ k, a k * d k := by
  rw [← Finset.sum_sub_distrib, ← Finset.sum_add_distrib, ← Finset.sum_sub_distrib]
  exact Finset.sum_congr rfl fun k _ => by ring

/-- The same on the extended reals for real data, with the weighted factors written as the products
    `w·r` and `w·s` they are in the computation. -/
theorem three_for_four {ι : Type*} [Fintype ι] (w r s c d : ι → ℝ) :
    (∑ k, ((w k : EReal) * (r k : EReal) + (w k : EReal) * (s k : EReal)) * ((c k : EReal) - (d k : EReal)))
        - ∑ k, ((w k : EReal) * (r k : EReal)) * (c k : EReal) + ∑ k, ((w k : EReal) * (s k : EReal)) * (d k : EReal)
      = ∑ k, ((w k : EReal) * (s k : EReal)) * (c k : EReal) - ∑ k, ((w k : EReal) * (r k : EReal)) * (d k : EReal) := by
  simp only [← EReal.coe_mul, ← EReal.coe_add, ← EReal.coe_sub, ← coe_sum]
  exact congrArg _ (three_for_four_real (fun k => w k * r k) (fun k => w k * s k) c d)

end Cert.Karatsuba
-- ==== Proof.Mixture.lean ====
/-
  The weighted mixture of outer products, entry by entry.

  For a batch b, the data are 1024 complex vectors of length 768, given by a real part re[b,k,·] and an imaginary
  part im[b,k,·], and a weight w[b,k] for each.  The mixture  Σ_k w[b,k] · φ_k φ_k^*  has, at (p, q),

      real part       Σ_k (w·re_p)·re_q + Σ_k (w·im_p)·im_q
      imaginary part  Σ_k (w·im_p)·re_q − Σ_k (w·re_p)·im_q.

  Each of the four sums is a `weighted correlation` of two columns.  The imaginary part is also obtained from the
  two correlations of the real part and one more, of the column sums against the column differences; that form
  needs real data.
-/
import Idealize.ShloMosaic.Lib.ValueIdx
import proofs.«112458_j54906861912216_2_alg».proof.Proof.Karatsuba

noncomputable section

namespace Cert.Mixture

open Idealize.ShloMosaic Idealize.ShloMosaic.ValueIdx

/-- A data array: batch, vector number, component. -/
abbrev Data : Type := (⟨3, ![16, 1024, 768]⟩ : Shape).Idx → EReal
/-- The weights: batch, vector number. -/
abbrev Weights : Type := (⟨2, ![16, 1024]⟩ : Shape).Idx → EReal
/-- A result array: batch, row, column. -/
abbrev Result : Type := (⟨3, ![16, 768, 768]⟩ : Shape).Idx → EReal

/-- The weighted correlation of component p of `x` with component q of `y` in batch b. -/
def corr (w : Weights) (x y : Data) (b : Fin 16) (p q : Fin 768) : EReal :=
  ∑ k : Fin 1024, (w (ix2 b k) * x (ix3 b k p)) * y (ix3 b k q)

/-- The weighted correlation of the sum of the two parts' components p with the difference of their components q. -/
def corrSumDiff (w : Weights) (re im : Data) (b : Fin 16) (p q : Fin 768) : EReal :=
  ∑ k : Fin 1024, (w (ix2 b k) * re (ix3 b k p) + w (ix2 b k) * im (ix3 b k p)) * (re (ix3 b k q) - im (ix3 b k q))

/-- The real part of the mixture. -/
def mixRe (re im : Data) (w : Weights) : Result :=
  fun i => corr w re re (i 0) (i 1) (i 2) + corr w im im (i 0) (i 1) (i 2)

/-- The imaginary part of the mixture. -/
def mixIm (re im : Data) (w : Weights) : Result :=
  fun i => corr w im re (i 0) (i 1) (i 2) - corr w re im (i 0) (i 1) (i 2)

/-- For real data the imaginary part is the sum-against-difference correlation, less the first correlation of
    the real part, plus the second. -/
theorem three_products (re im : Data) (w : Weights) (hre : ∀ i, ∃ r : ℝ, re i = (r : EReal))
    (him : ∀ i, ∃ r : ℝ, im i = (r : EReal)) (hw : ∀ i, ∃ r : ℝ, w i = (r : EReal)) (b : Fin 16) (p q : Fin 768) :
    corrSumDiff w re im b p q - corr w re re b p q + corr w im im b p q = corr w im re b p q - corr w re im b p q := by
  choose R hR using hre
  choose I hI using him
  choose W hW using hw
  obtain rfl : re = fun i => (R i : EReal) := funext hR
  obtain rfl : im = fun i => (I i : EReal) := funext hI
  obtain rfl : w = fun i => (W i : EReal) := funext hW
  exact Cert.Karatsuba.three_for_four (fun k : Fin 1024 => W (ix2 b k)) (fun k => R (ix3 b k p)) (fun k => I (ix3 b k p))
    (fun k => R (ix3 b k q)) (fun k => I (ix3 b k q))

end Cert.Mixture

end
-- ==== Proof.BlockEntry.lean ====
/-
  One grid point's stored values are entries of the mixture.

  At the grid point (b, j) the three blocks read are the rows of batch b of the three arrays, and the two 256-column
  slices are columns 256·j … 256·j + 255 of the two data blocks.  Under these readings a weighted correlation within
  the block is the weighted correlation of the arrays in batch b at column 256·j + q, so the first stored value at
  (p, q) is the real part of the mixture at (b, p, 256·j + q), and — for real data, by the three-product identity —
  the second stored value is the imaginary part there.
-/
import proofs.«112458_j54906861912216_2_alg».proof.Proof.BodyValue
import proofs.«112458_j54906861912216_2_alg».proof.Proof.Mixture

noncomputable section

namespace Cert.KernelIdeal.Body

open Cert.KernelIdeal Cert.KernelIdeal.Gen Idealize.ShloMosaic Idealize.ShloMosaic.ValueIdx Cert.Mixture

/-- Column q of the j-th block of 256 columns. -/
def col (j : Fin 3) (q : Fin 256) : Fin 768 := ⟨256 * j.val + q.val, by have := j.isLt; have := q.isLt; omega⟩

theorem col_val (j : Fin 3) (q : Fin 256) : (col j q).val = 256 * j.val + q.val := rfl

/-- What the body's five loads at the grid point (b, j) read of the three arrays. -/
structure Reads (x0 x1 : Vec Ideal S1x1024x768 .f32) (x2 : Vec Ideal S1x1024x1 .f32) (v9 v12 : Vec Ideal S1x1024x256 .f32)
    (re im : Data) (w : Weights) (b : Fin 16) (j : Fin 3) : Prop where
  first : ∀ (k : Fin 1024) (p : Fin 768), x0 (ix3 (0 : Fin 1) k p) = re (ix3 b k p)
  second : ∀ (k : Fin 1024) (p : Fin 768), x1 (ix3 (0 : Fin 1) k p) = im (ix3 b k p)
  weight : ∀ k : Fin 1024, weightAt x2 k = w (ix2 b k)
  colsFirst : ∀ (k : Fin 1024) (q : Fin 256), v9 (ix3 (0 : Fin 1) k q) = re (ix3 b k (col j q))
  colsSecond : ∀ (k : Fin 1024) (q : Fin 256), v12 (ix3 (0 : Fin 1) k q) = im (ix3 b k (col j q))

variable {x0 x1 : Vec Ideal S1x1024x768 .f32} {x2 : Vec Ideal S1x1024x1 .f32} {v9 v12 : Vec Ideal S1x1024x256 .f32}
  {re im : Data} {w : Weights} {b : Fin 16} {j : Fin 3}

theorem Reads.corr_re_re (h : Reads x0 x1 x2 v9 v12 re im w b j) (p : Fin 768) (q : Fin 256) :
    blockCorr x2 x0 v9 p q = corr w re re b p (col j q) := by
  unfold blockCorr corr
  exact Finset.sum_congr rfl fun k _ => by rw [h.weight, h.first, h.colsFirst]

theorem Reads.corr_im_im (h : Reads x0 x1 x2 v9 v12 re im w b j) (p : Fin 768) (q : Fin 256) :
    blockCorr x2 x1 v12 p q = corr w im im b p (col j q) := by
  unfold blockCorr corr
  exact Finset.sum_congr rfl fun k _ => by rw [h.weight, h.second, h.colsSecond]

theorem Reads.corr_sum_diff (h : Reads x0 x1 x2 v9 v12 re im w b j) (p : Fin 768) (q : Fin 256) :
    blockCorrSumDiff x2 x0 x1 v9 v12 p q = corrSumDiff w re im b p (col j q) := by
  unfold blockCorrSumDiff corrSumDiff
  exact Finset.sum_congr rfl fun k _ => by rw [h.weight, h.first, h.second, h.colsFirst, h.colsSecond]

/-- The first stored value at (0, p, q) is the real part of the mixture at (b, p, 256·j + q). -/
theorem Reads.first_is_re (h : Reads x0 x1 x2 v9 v12 re im w b j) (u : Fin 1) (p : Fin 768) (q : Fin 256) :
    k0_pay10 (F := Ideal) x0 x1 x2 v9 v12 (ix3 u p q) = mixRe re im w (ix3 b p (col j q)) := by
  rw [Body.stored_first, h.corr_re_re, h.corr_im_im]
  rfl

/-- For real data the second stored value at (0, p, q) is the imaginary part of the mixture at (b, p, 256·j + q). -/
theorem Reads.second_is_im (h : Reads x0 x1 x2 v9 v12 re im w b j) (hre : ∀ i, ∃ r : ℝ, re i = (r : EReal))
    (him : ∀ i, ∃ r : ℝ, im i = (r : EReal)) (hw : ∀ i, ∃ r : ℝ, w i = (r : EReal)) (u : Fin 1) (p : Fin 768) (q : Fin 256) :
    k0_pay1 (F := Ideal) (k0_pay9 x0 x1 x2 v9 v12) (ix3 u p q) = mixIm re im w (ix3 b p (col j q)) := by
  rw [Body.stored_second, h.corr_re_re, h.corr_im_im, h.corr_sum_diff, three_products re im w hre him hw]
  rfl

end Cert.KernelIdeal.Body

end
-- ==== Proof.Arrays.lean ====
/-
  The two result arrays after the run are the real and the imaginary part of the mixture.

  The grid has 16 × 3 points.  At the point (b, j) every input window's block is batch b of its array (the weights
  arrive as a [16,1024,1] array, each weight in its own row), and each output window's block is rows 0…767,
  columns 256·j … 256·j + 255 of batch b of its array.  So what the point writes back is the block of the mixture it
  covers, the 48 blocks cover both result arrays, and each array ends as one function of the three argument arrays.
  For the second array the three-product identity is used, which needs the arguments to be real numbers.
-/
import proofs.«112458_j54906861912216_2_alg».proof.Proof.Gen.KernelIdeal.Value
import proofs.«112458_j54906861912216_2_alg».proof.Proof.Stores
import proofs.«112458_j54906861912216_2_alg».proof.Proof.BlockEntry
import Idealize.ShloMosaic.Lib.Pipeline.Value
import Idealize.ShloMosaic.Lib.StableHlo.Run

noncomputable section

namespace Cert.KernelIdeal.Whole

open Cert.KernelIdeal Cert.KernelIdeal.Gen Cert.KernelIdeal.Value Cert.KernelIdeal.Blocks Cert.KernelIdeal.Body Cert.Mixture
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The grid point `t` is the pair (b, j): every input block is block (b, 0, 0) of its array, every output block is
    block (b, 0, j), and the body's column slice starts at column 256·j. -/
def IsPoint (t : Fin cfg0.N) (b : Fin 16) (j : Fin 3) : Prop :=
  (win0_0.index t 0 = b.val ∧ win0_0.index t 1 = 0 ∧ win0_0.index t 2 = 0)
  ∧ (win0_1.index t 0 = b.val ∧ win0_1.index t 1 = 0 ∧ win0_1.index t 2 = 0)
  ∧ (win0_2.index t 0 = b.val ∧ win0_2.index t 1 = 0 ∧ win0_2.index t 2 = 0)
  ∧ (win0_3.index t 0 = b.val ∧ win0_3.index t 1 = 0 ∧ win0_3.index t 2 = j.val)
  ∧ (win0_4.index t 0 = b.val ∧ win0_4.index t 1 = 0 ∧ win0_4.index t 2 = j.val)
  ∧ k0_off1 (grid0.coords t) = ![0, 0, 256 * j.val]

instance (t : Fin cfg0.N) (b : Fin 16) (j : Fin 3) : Decidable (IsPoint t b j) := by unfold IsPoint; infer_instance

/-- Every grid point is some (b, j) … -/
theorem point_is : ∀ t : Fin cfg0.N, ∃ (b : Fin 16) (j : Fin 3), IsPoint t b j :=
  (by decide +kernel : ∀ t : Fin grid0.N, ∃ (b : Fin 16) (j : Fin 3), IsPoint t b j)

/-- … and every (b, j) is some grid point. -/
theorem point_of : ∀ (b : Fin 16) (j : Fin 3), ∃ t : Fin cfg0.N, IsPoint t b j :=
  (by decide +kernel : ∀ (b : Fin 16) (j : Fin 3), ∃ t : Fin grid0.N, IsPoint t b j)

/-! ## What the blocks read of the arrays -/

/-- The weights as the region finds them: a [16,1024,1] array with weight (b, k) at (b, k, 0). -/
theorem weights_array (c : Dev nD) :
    (V m c main_v0 : S16x1024x1.Idx → EReal)
      = broadcastInDim S16x1024x1 ![0, 1] bcast_S16x1024_S16x1024x1_0_1 (m ((c : Thread nD τ).loc main_arg2)) := by
  dsimp only [Gen.V, Gen.hostOps0]; after_results

/-- Its entry (b, k, 0) is weight (b, k). -/
theorem weights_entry (c : Dev nD) (i : S16x1024x1.Idx) (b : Fin 16) (k : Fin 1024) (h0 : (i 0).val = b.val) (h1 : (i 1).val = k.val) :
    (V m c main_v0 : S16x1024x1.Idx → EReal) i = m ((c : Thread nD τ).loc main_arg2) (ix2 b k) := by
  rw [weights_array]
  refine broadcastInDim_apply _ bcast_S16x1024_S16x1024x1_0_1 _ i (ix2 b k) fun a => ?_
  match a with
  | ⟨0, _⟩ => show b.val = if (16 : Nat) = 1 then 0 else (i 0).val; rw [if_neg (by decide), h0]
  | ⟨1, _⟩ => show k.val = if (1024 : Nat) = 1 then 0 else (i 1).val; rw [if_neg (by decide), h1]

variable {t : Fin cfg0.N} {b : Fin 16} {j : Fin 3}

/-- The first data block at (b, j) is batch b of the first argument. -/
theorem first_rows (c : Dev nD) (h : IsPoint t b j) (k : Fin 1024) (p : Fin 768) :
    (iblk m c 0 t : Vec Ideal S1x1024x768 .f32) (ix3 (0 : Fin 1) k p) = m ((c : Thread nD τ).loc main_arg0) (ix3 b k p) := by
  obtain ⟨⟨e0, e1, e2⟩, -⟩ := h
  show V m c main_arg0 (((cfg0.win 0).blk t).view.emb (ix3 (0 : Fin 1) k p)) = _
  rw [V_main_arg0]
  refine congrArg _ (funext fun a => Fin.ext ?_)
  match a with
  | ⟨0, _⟩ => show win0_0.index t 0 * 1 + 1 * 0 = b.val; omega
  | ⟨1, _⟩ => show win0_0.index t 1 * 1024 + 1 * k.val = k.val; omega
  | ⟨2, _⟩ => show win0_0.index t 2 * 768 + 1 * p.val = p.val; omega

/-- The second data block at (b, j) is batch b of the second argument. -/
theorem second_rows (c : Dev nD) (h : IsPoint t b j) (k : Fin 1024) (p : Fin 768) :
    (iblk m c 1 t : Vec Ideal S1x1024x768 .f32) (ix3 (0 : Fin 1) k p) = m ((c : Thread nD τ).loc main_arg1) (ix3 b k p) := by
  obtain ⟨-, ⟨e0, e1, e2⟩, -⟩ := h
  show V m c main_arg1 (((cfg0.win 1).blk t).view.emb (ix3 (0 : Fin 1) k p)) = _
  rw [V_main_arg1]
  refine congrArg _ (funext fun a => Fin.ext ?_)
  match a with
  | ⟨0, _⟩ => show win0_1.index t 0 * 1 + 1 * 0 = b.val; omega
  | ⟨1, _⟩ => show win0_1.index t 1 * 1024 + 1 * k.val = k.val; omega
  | ⟨2, _⟩ => show win0_1.index t 2 * 768 + 1 * p.val = p.val; omega

/-- The weight block at (b, j) holds the weights of batch b. -/
theorem weight_rows (c : Dev nD) (h : IsPoint t b j) (k : Fin 1024) :
    weightAt (iblk m c 2 t : Vec Ideal S1x1024x1 .f32) k = m ((c : Thread nD τ).loc main_arg2) (ix2 b k) := by
  obtain ⟨-, -, ⟨e0, e1, e2⟩, -⟩ := h
  show (V m c main_v0 : S16x1024x1.Idx → EReal) (((cfg0.win 2).blk t).view.emb (ix3 (0 : Fin 1) k (0 : Fin 1))) = _
  refine weights_entry m c _ b k ?_ ?_
  · show win0_2.index t 0 * 1 + 1 * 0 = b.val; omega
  · show win0_2.index t 1 * 1024 + 1 * k.val = k.val; omega

/-- Together: what the body's five loads at (b, j) read of the three arguments. -/
theorem reads (c : Dev nD) (h : IsPoint t b j) :
    Reads (iblk m c 0 t) (iblk m c 1 t) (iblk m c 2 t) (cols256 (grid0.coords t) (iblk m c 0 t)) (cols256 (grid0.coords t) (iblk m c 1 t))
      (m ((c : Thread nD τ).loc main_arg0)) (m ((c : Thread nD τ).loc main_arg1)) (m ((c : Thread nD τ).loc main_arg2)) b j where
  first := first_rows m c h
  second := second_rows m c h
  weight := weight_rows m c h
  colsFirst k q := by
    rw [cols256_apply (grid0.coords t) (256 * j.val) h.2.2.2.2.2 _ k q (by have := j.isLt; have := q.isLt; omega)]
    exact first_rows m c h k (col j q)
  colsSecond k q := by
    rw [cols256_apply (grid0.coords t) (256 * j.val) h.2.2.2.2.2 _ k q (by have := j.isLt; have := q.isLt; omega)]
    exact second_rows m c h k (col j q)

/-! ## What a point writes back -/

/-- The output block's entry (u, p, q) at (b, j) sits at (b, p, 256·j + q) of its array. -/
theorem out_first_at (h : IsPoint t b j) (u : Fin 1) (p : Fin 768) (q : Fin 256) :
    ((cfg0.win 3).blk t).view.emb (ix3 u p q) = ix3 b p (col j q) := by
  obtain ⟨-, -, -, ⟨e0, e1, e2⟩, -⟩ := h
  have hu : u.val = 0 := by omega
  refine funext fun a => Fin.ext ?_
  match a with
  | ⟨0, _⟩ => show win0_3.index t 0 * 1 + 1 * u.val = b.val; omega
  | ⟨1, _⟩ => show win0_3.index t 1 * 768 + 1 * p.val = p.val; omega
  | ⟨2, _⟩ => show win0_3.index t 2 * 256 + 1 * q.val = 256 * j.val + q.val; omega

theorem out_second_at (h : IsPoint t b j) (u : Fin 1) (p : Fin 768) (q : Fin 256) :
    ((cfg0.win 4).blk t).view.emb (ix3 u p q) = ix3 b p (col j q) := by
  obtain ⟨-, -, -, -, ⟨e0, e1, e2⟩, -⟩ := h
  have hu : u.val = 0 := by omega
  refine funext fun a => Fin.ext ?_
  match a with
  | ⟨0, _⟩ => show win0_4.index t 0 * 1 + 1 * u.val = b.val; omega
  | ⟨1, _⟩ => show win0_4.index t 1 * 768 + 1 * p.val = p.val; omega
  | ⟨2, _⟩ => show win0_4.index t 2 * 256 + 1 * q.val = 256 * j.val + q.val; omega

/-- The real part of the mixture of the arguments as launched, as contents of the first result array. -/
abbrev reArray (c : Dev nD) : Buf (Elt Ideal) ((c : Thread nD τ).loc main_v1_0) :=
  mixRe (m ((c : Thread nD τ).loc main_arg0)) (m ((c : Thread nD τ).loc main_arg1)) (m ((c : Thread nD τ).loc main_arg2))

/-- The imaginary part, as contents of the second result array. -/
abbrev imArray (c : Dev nD) : Buf (Elt Ideal) ((c : Thread nD τ).loc main_v1_1) :=
  mixIm (m ((c : Thread nD τ).loc main_arg0)) (m ((c : Thread nD τ).loc main_arg1)) (m ((c : Thread nD τ).loc main_arg2))

/-- The arguments on device `c` are real numbers. -/
def RealArgs (c : Dev nD) : Prop :=
  (∀ i, ∃ r : ℝ, m ((c : Thread nD τ).loc main_arg0) i = (r : EReal))
  ∧ (∀ i, ∃ r : ℝ, m ((c : Thread nD τ).loc main_arg1) i = (r : EReal))
  ∧ (∀ i, ∃ r : ℝ, m ((c : Thread nD τ).loc main_arg2) i = (r : EReal))

/-- What point `t` writes back to the first result array is its block of the real part. -/
theorem flushed_first (c : Dev nD) (t : Fin cfg0.N) :
    (dats m 0 c).flushed 3 t = ((cfg0.win 3).blk t).view.read (Elt Ideal) (reArray m c) := by
  obtain ⟨b, j, h⟩ := point_is t
  rw [flushed3_A, first_block]
  funext y
  show k0_pay10 (F := Ideal) (iblk m c 0 t) (iblk m c 1 t) (iblk m c 2 t) (cols256 (grid0.coords t) (iblk m c 0 t))
      (cols256 (grid0.coords t) (iblk m c 1 t)) (ix3 (y 0) (y 1) (y 2))
    = reArray m c (((cfg0.win 3).blk t).view.emb (ix3 (y 0) (y 1) (y 2)))
  exact ((reads m c h).first_is_re (y 0) (y 1) (y 2)).trans (congrArg (reArray m c) (out_first_at h (y 0) (y 1) (y 2)).symm)

/-- For real arguments, what point `t` writes back to the second result array is its block of the imaginary part. -/
theorem flushed_second (c : Dev nD) (hreal : RealArgs m c) (t : Fin cfg0.N) :
    (dats m 0 c).flushed 4 t = ((cfg0.win 4).blk t).view.read (Elt Ideal) (imArray m c) := by
  obtain ⟨b, j, h⟩ := point_is t
  rw [flushed4_A, second_block]
  funext y
  show k0_pay1 (F := Ideal) (k0_pay9 (iblk m c 0 t) (iblk m c 1 t) (iblk m c 2 t) (cols256 (grid0.coords t) (iblk m c 0 t))
      (cols256 (grid0.coords t) (iblk m c 1 t))) (ix3 (y 0) (y 1) (y 2))
    = imArray m c (((cfg0.win 4).blk t).view.emb (ix3 (y 0) (y 1) (y 2)))
  exact ((reads m c h).second_is_im hreal.1 hreal.2.1 hreal.2.2 (y 0) (y 1) (y 2)).trans
    (congrArg (imArray m c) (out_second_at h (y 0) (y 1) (y 2)).symm)

/-! ## The blocks cover the arrays -/

/-- An index of the first result array is in point `t`'s block iff each coordinate is in the block's range. -/
theorem mem_first (t : Fin cfg0.N) (i : S16x768x768.Idx) :
    i ∈ ((cfg0.win 3).blk t).view.set ↔ ∀ a : Fin 3, win0_3.index t a * S1x768x256.size a ≤ (i a).val
      ∧ (i a).val < win0_3.index t a * S1x768x256.size a + S1x768x256.size a := by
  show i ∈ ((View.whole main_v1_0).slice (win0_3.rect t)).set ↔ _
  rw [View.set_slice_whole, Rect.mem_set_unit]
  exact Iff.rfl

theorem mem_second (t : Fin cfg0.N) (i : S16x768x768.Idx) :
    i ∈ ((cfg0.win 4).blk t).view.set ↔ ∀ a : Fin 3, win0_4.index t a * S1x768x256.size a ≤ (i a).val
      ∧ (i a).val < win0_4.index t a * S1x768x256.size a + S1x768x256.size a := by
  show i ∈ ((View.whole main_v1_1).slice (win0_4.rect t)).set ↔ _
  rw [View.set_slice_whole, Rect.mem_set_unit]
  exact Iff.rfl

/-- Entry (b, p, c) is in the block of the point (b, c / 256). -/
theorem covered_first (i : S16x768x768.Idx) : ∃ t : Fin cfg0.N, (cfg0.win 3).flush t = true ∧ i ∈ ((cfg0.win 3).blk t).view.set := by
  have h0 : (i 0).val < 16 := (i 0).isLt
  have h1 : (i 1).val < 768 := (i 1).isLt
  have h2 : (i 2).val < 768 := (i 2).isLt
  obtain ⟨t, -, -, -, ⟨e0, e1, e2⟩, -⟩ := point_of ⟨(i 0).val, h0⟩ ⟨(i 2).val / 256, by omega⟩
  refine ⟨t, flush0_3 t, ?_⟩
  rw [mem_first]
  intro a
  match a with
  | ⟨0, _⟩ => show win0_3.index t 0 * 1 ≤ (i 0).val ∧ (i 0).val < win0_3.index t 0 * 1 + 1
              rw [e0]; show (i 0).val * 1 ≤ (i 0).val ∧ (i 0).val < (i 0).val * 1 + 1; omega
  | ⟨1, _⟩ => show win0_3.index t 1 * 768 ≤ (i 1).val ∧ (i 1).val < win0_3.index t 1 * 768 + 768
              rw [e1]; omega
  | ⟨2, _⟩ => show win0_3.index t 2 * 256 ≤ (i 2).val ∧ (i 2).val < win0_3.index t 2 * 256 + 256
              rw [e2]; show (i 2).val / 256 * 256 ≤ (i 2).val ∧ (i 2).val < (i 2).val / 256 * 256 + 256; omega

theorem covered_second (i : S16x768x768.Idx) : ∃ t : Fin cfg0.N, (cfg0.win 4).flush t = true ∧ i ∈ ((cfg0.win 4).blk t).view.set := by
  have h0 : (i 0).val < 16 := (i 0).isLt
  have h1 : (i 1).val < 768 := (i 1).isLt
  have h2 : (i 2).val < 768 := (i 2).isLt
  obtain ⟨t, -, -, -, -, ⟨e0, e1, e2⟩, -⟩ := point_of ⟨(i 0).val, h0⟩ ⟨(i 2).val / 256, by omega⟩
  refine ⟨t, flush0_4 t, ?_⟩
  rw [mem_second]
  intro a
  match a with
  | ⟨0, _⟩ => show win0_4.index t 0 * 1 ≤ (i 0).val ∧ (i 0).val < win0_4.index t 0 * 1 + 1
              rw [e0]; show (i 0).val * 1 ≤ (i 0).val ∧ (i 0).val < (i 0).val * 1 + 1; omega
  | ⟨1, _⟩ => show win0_4.index t 1 * 768 ≤ (i 1).val ∧ (i 1).val < win0_4.index t 1 * 768 + 768
              rw [e1]; omega
  | ⟨2, _⟩ => show win0_4.index t 2 * 256 ≤ (i 2).val ∧ (i 2).val < win0_4.index t 2 * 256 + 256
              rw [e2]; show (i 2).val / 256 * 256 ≤ (i 2).val ∧ (i 2).val < (i 2).val / 256 * 256 + 256; omega

/-! ## The arrays after the run -/

/-- The first result array ends as the real part of the mixture. -/
theorem final_first (c : Dev nD) : (dats m 0 c).arrAt 3 cfg0.N = reArray m c :=
  (dats m 0 c).arrAt_eq_of_cover 3 (reArray m c) (fun t _ => flushed_first m c t) covered_first

/-- For real arguments the second result array ends as the imaginary part of the mixture. -/
theorem final_second (c : Dev nD) (hreal : RealArgs m c) : (dats m 0 c).arrAt 4 cfg0.N = imArray m c :=
  (dats m 0 c).arrAt_eq_of_cover 4 (imArray m c) (fun t _ => flushed_second m c hreal t) covered_second

/-- The run, read: for real arguments every weakly fair execution terminates with the two result arrays at the real
    and the imaginary part of the mixture of the arguments, and the arguments unchanged. -/
theorem run (hreal : ∀ c : Dev nD, RealArgs m c) :
    θ_run defs (onTc (τ := τ) (main (F := Ideal))) ⟨m, fun _ => 0, ρ⟩ fun r => ∀ c : Dev nD,
      r.2.mem ((c : Thread nD τ).loc main_v1_0) = reArray m c
      ∧ r.2.mem ((c : Thread nD τ).loc main_v1_1) = imArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_first m c), (h c).2.1.trans (final_second m c (hreal c)), (h c).2.2⟩)
    (run_blocks m ρ)

end Cert.KernelIdeal.Whole

end
-- ==== Proof.ReferenceValue.lean ====
/-
  The reference's two results are the real and the imaginary part of the mixture.

  The reference spreads the weights over the components, scales both parts, and forms four batched products
  contracted over the vector number: entry (b, p, q) of a product of a scaled part with a part is their weighted
  correlation.  Its first result adds two of them, its second subtracts the other two.
-/
import proofs.«112458_j54906861912216_2_alg».proof.Proof.Gen.ReferenceIdeal.Read
import proofs.«112458_j54906861912216_2_alg».proof.Proof.Mixture

noncomputable section

namespace Cert.ReferenceIdeal.RefValue

open Cert.ReferenceIdeal Cert.ReferenceIdeal.Read Idealize.ShloMosaic Idealize.ShloMosaic.ValueIdx Cert.Mixture

variable (x0 x1 : (⟨S16x1024x768, .f32⟩ : BufTy).Contents (Elt Ideal)) (x2 : (⟨S16x1024, .f32⟩ : BufTy).Contents (Elt Ideal))

/-- The weights spread over the components read, at (b, k, p), the weight (b, k). -/
theorem spread_first (b : Fin 16) (k : Fin 1024) (p : Fin 768) :
    val_main_v1 (F := Ideal) x2 (ix3 b k p) = x2 (ix2 b k) := by
  rw [val_main_v1_apply, val_main_v0_apply]
  exact congrArg x2 (funext fun a => Fin.ext (by match a with | ⟨0, _⟩ => rfl | ⟨1, _⟩ => rfl))

theorem spread_second (b : Fin 16) (k : Fin 1024) (p : Fin 768) :
    val_main_v4 (F := Ideal) x2 (ix3 b k p) = x2 (ix2 b k) := by
  rw [val_main_v4_apply, val_main_v3_apply]
  exact congrArg x2 (funext fun a => Fin.ext (by match a with | ⟨0, _⟩ => rfl | ⟨1, _⟩ => rfl))

/-- The scaled real part at (b, k, p). -/
theorem scaled_first (b : Fin 16) (k : Fin 1024) (p : Fin 768) :
    val_main_v2 (F := Ideal) x0 x2 (ix3 b k p) = x2 (ix2 b k) * x0 (ix3 b k p) := by
  rw [val_main_v2_apply, spread_first]; rfl

/-- The scaled imaginary part at (b, k, p). -/
theorem scaled_second (b : Fin 16) (k : Fin 1024) (p : Fin 768) :
    val_main_v5 (F := Ideal) x1 x2 (ix3 b k p) = x2 (ix2 b k) * x1 (ix3 b k p) := by
  rw [val_main_v5_apply, spread_second]; rfl

/-- Where a batched product's entry (b, p, q) reads its operands at contraction position k. -/
theorem left_index (b : Fin 16) (p q : Fin 768) (k : Fin 1024) : lidx_main_v6 (ix3 b p q) k = ix3 b k p :=
  funext fun a => Fin.ext (by match a with | ⟨0, _⟩ => rfl | ⟨1, _⟩ => rfl | ⟨2, _⟩ => rfl)
theorem right_index (b : Fin 16) (p q : Fin 768) (k : Fin 1024) : ridx_main_v6 (ix3 b p q) k = ix3 b k q :=
  funext fun a => Fin.ext (by match a with | ⟨0, _⟩ => rfl | ⟨1, _⟩ => rfl | ⟨2, _⟩ => rfl)

/-- The four products, entry by entry. -/
theorem product_re_re (b : Fin 16) (p q : Fin 768) : val_main_v6 (F := Ideal) x0 x2 (ix3 b p q) = corr x2 x0 x0 b p q := by
  rw [val_main_v6_apply]
  unfold corr
  refine Finset.sum_congr rfl fun k _ => ?_
  rw [left_index, right_index, scaled_first]

theorem product_im_im (b : Fin 16) (p q : Fin 768) : val_main_v7 (F := Ideal) x1 x2 (ix3 b p q) = corr x2 x1 x1 b p q := by
  rw [val_main_v7_apply]
  unfold corr
  refine Finset.sum_congr rfl fun k _ => ?_
  rw [show lidx_main_v7 (ix3 b p q) k = ix3 b k p from left_index b p q k,
    show ridx_main_v7 (ix3 b p q) k = ix3 b k q from right_index b p q k, scaled_second]

theorem product_im_re (b : Fin 16) (p q : Fin 768) : val_main_v9 (F := Ideal) x0 x1 x2 (ix3 b p q) = corr x2 x1 x0 b p q := by
  rw [val_main_v9_apply]
  unfold corr
  refine Finset.sum_congr rfl fun k _ => ?_
  rw [show lidx_main_v9 (ix3 b p q) k = ix3 b k p from left_index b p q k,
    show ridx_main_v9 (ix3 b p q) k = ix3 b k q from right_index b p q k, scaled_second]

theorem product_re_im (b : Fin 16) (p q : Fin 768) : val_main_v10 (F := Ideal) x0 x1 x2 (ix3 b p q) = corr x2 x0 x1 b p q := by
  rw [val_main_v10_apply]
  unfold corr
  refine Finset.sum_congr rfl fun k _ => ?_
  rw [show lidx_main_v10 (ix3 b p q) k = ix3 b k p from left_index b p q k,
    show ridx_main_v10 (ix3 b p q) k = ix3 b k q from right_index b p q k, scaled_first]

/-- The reference's first result is the real part of the mixture. -/
theorem first_result : val_main_v8 (F := Ideal) x0 x1 x2 = mixRe x0 x1 x2 := by
  funext i
  obtain ⟨b, p, q, rfl⟩ : ∃ (b : Fin 16) (p q : Fin 768), i = ix3 b p q := ⟨i 0, i 1, i 2, eq_ix3 i⟩
  rw [val_main_v8_apply, product_re_re, product_im_im]
  rfl

/-- The reference's second result is the imaginary part of the mixture. -/
theorem second_result : val_main_v11 (F := Ideal) x0 x1 x2 = mixIm x0 x1 x2 := by
  funext i
  obtain ⟨b, p, q, rfl⟩ : ∃ (b : Fin 16) (p q : Fin 768), i = ix3 b p q := ⟨i 0, i 1, i 2, eq_ix3 i⟩
  rw [val_main_v11_apply, product_im_re, product_re_im]
  rfl

end Cert.ReferenceIdeal.RefValue

end
-- ==== Proof.FiniteInputs.lean ====
/-
  The precondition says that every argument is a real number.

  The precondition is the conjunction of three tests, one per argument array: every entry x has |x| < +∞.  On the
  extended reals |x| = max x (−x), which is +∞ exactly at the two infinities; so an entry that passes the test is
  a real number.
-/
import proofs.«112458_j54906861912216_2_alg».proof.Pre_finite_inputs
import proofs.«112458_j54906861912216_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic Idealize.ShloMosaic.ValueIdx

instance : Subsingleton S_.Idx := ⟨fun a b => funext fun d => d.elim0⟩

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- If the precondition holds of three arrays, all their entries are real numbers. -/
theorem real_of_pre (x0 x1 : FVec Ideal S16x1024x768 .f32) (x2 : FVec Ideal S16x1024 .f32)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h1 := congrFun h ix0
  change IntOp.andi (IntOp.andi _ _) _ = 1#1 at h1
  obtain ⟨h12, h3⟩ := IntOp.andi_eq_one.1 h1
  obtain ⟨h1', h2'⟩ := IntOp.andi_eq_one.1 h12
  refine ⟨fun i => ?_, fun i => ?_, fun i => ?_⟩
  · exact real_of_abs_lt_top _ (Host.reduce_andi_all _ _ _ _ ix0 h1' i)
  · exact real_of_abs_lt_top _ (Host.reduce_andi_all _ _ _ _ ix0 h2' i)
  · exact real_of_abs_lt_top _ (Host.reduce_andi_all _ _ _ _ ix0 h3 i)

end Cert.Pre_finite_inputs.Finite

end
-- ==== Proof.lean ====
/-
  A weighted mixture of complex outer products, computed with three matrix products per tile instead of four.

  The arguments are the real and the imaginary parts re, im : [16,1024,768] of 16 × 1024 complex vectors of length
  768, and weights w : [16,1024].  The reference computes, per batch b, the real part  Σ_k (w·re_p)·re_q +
  Σ_k (w·im_p)·im_q  and the imaginary part  Σ_k (w·im_p)·re_q − Σ_k (w·re_p)·im_q  of  Σ_k w_k φ_k φ_k^*  by four batched
  products.  The kernel walks a 16 × 3 grid; at (b, j) it forms, for the 256 columns q of tile j, the two products of
  the real part and the product of (w·re + w·im) with (re − im), and writes  m1 + m2  and  m3 − m1 + m2.  On the
  extended reals a matrix product is the exact sum, a rounding to a shorter format is the identity, and for real
  arguments  m3 − m1 + m2  is the imaginary part (Proof/Karatsuba.lean); the precondition says the arguments are real
  (Proof/FiniteInputs.lean).

  Proof/Stores.lean reads the body's two stores as values, Proof/BodyValue.lean reads those values entry by entry,
  Proof/BlockEntry.lean places a grid point's block in the mixture, Proof/Arrays.lean assembles the 48 blocks into the
  two result arrays, Proof/ReferenceValue.lean reads the reference's results as the same two functions.  No operation
  of the kernel is rewritten for its reading on the extended reals, so that conjunct of the claim is `True`.
-/
import proofs.«112458_j54906861912216_2_alg».proof.Defs
import proofs.«112458_j54906861912216_2_alg».proof.Proof.Gen.Kernel
import proofs.«112458_j54906861912216_2_alg».proof.Proof.Gen.Kernel.Skeleton
import proofs.«112458_j54906861912216_2_alg».proof.Proof.Gen.Kernel.Launch
import proofs.«112458_j54906861912216_2_alg».proof.Proof.Gen.Kernel.Points
import proofs.«112458_j54906861912216_2_alg».proof.Proof.Gen.Kernel.Frame
import proofs.«112458_j54906861912216_2_alg».proof.Proof.Gen.KernelIdeal
import proofs.«112458_j54906861912216_2_alg».proof.Proof.Gen.KernelIdeal.Skeleton
import proofs.«112458_j54906861912216_2_alg».proof.Proof.Gen.KernelIdeal.Launch
import proofs.«112458_j54906861912216_2_alg».proof.Proof.Gen.KernelIdeal.Points
import proofs.«112458_j54906861912216_2_alg».proof.Proof.Gen.KernelIdeal.Frame
import proofs.«112458_j54906861912216_2_alg».proof.Proof.Gen.ReferenceIdeal
import proofs.«112458_j54906861912216_2_alg».proof.Proof.Gen.Pre_finite_inputs
import proofs.«112458_j54906861912216_2_alg».proof.Proof.Gen.KernelIdeal.Value
import proofs.«112458_j54906861912216_2_alg».proof.Proof.Gen.ReferenceIdeal.Run
import proofs.«112458_j54906861912216_2_alg».proof.Proof.Gen.ReferenceIdeal.Read
import proofs.«112458_j54906861912216_2_alg».proof.Proof.Arrays
import proofs.«112458_j54906861912216_2_alg».proof.Proof.ReferenceValue
import proofs.«112458_j54906861912216_2_alg».proof.Proof.FiniteInputs
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Under the precondition the three arguments are real numbers, on every device. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Whole.RealArgs m c :=
  Cert.Pre_finite_inputs.Finite.real_of_pre _ _ _ (hpre c)

/-- From memories that agree on real arguments both programs end with the real part of the mixture in the first
    result and the imaginary part in the second. -/
theorem algebraic : Cert.algebraic_KernelIdeal_ReferenceIdeal := by
  intro m ρ m' ρ' hpre hagree
  refine ⟨fun c => Cert.KernelIdeal.Whole.reArray m c, fun c => Cert.KernelIdeal.Whole.imArray m c,
    Cert.KernelIdeal.Whole.run m ρ (real_args m hpre), ?_⟩
  refine (θ_run Cert.ReferenceIdeal.defs _ _).mono (fun _ h c => ?_) (Cert.ReferenceIdeal.Value.run (F := Ideal) m' ρ')
  obtain ⟨a0, a1, a2⟩ := hagree c
  refine ⟨(h c).1.trans ?_, (h c).2.1.trans ?_, (h c).2.2⟩
  · rw [Cert.ReferenceIdeal.Read.val_main_v8_eq, Cert.ReferenceIdeal.RefValue.first_result, a0, a1, a2]
  · rw [Cert.ReferenceIdeal.Read.val_main_v11_eq, Cert.ReferenceIdeal.RefValue.second_result, a0, a1, a2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
